-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192x256 : Shape := ⟨3, ![8, 8192, 256]⟩
abbrev S_ : Shape := ⟨0, ![]⟩

class Facts : Prop where
  bcast_S_S8x8192x256 : S_.BroadcastsInDim S8x8192x256 (![] : Fin 0 → Fin S8x8192x256.rank)
  reducesTo_S8x8192x256_S_d0_1_2 : S8x8192x256.ReducesTo [0, 1, 2] S_
  h_S_ : 0 < S_.numel

variable [Facts]

def fn {F : FTy → Type} [FloatOps F] (main_arg0 : FVec F S8x8192x256 .f32) (main_arg1 : FVec F S8x8192x256 .f32) : IVec S_ 1 :=
  let main_v0 : FVec F S8x8192x256 .f32 := Host.absf main_arg0
  let main_cst : FVec F S_ .f32 := constant S_ .f32 0x7F800000#32
  let main_v1 : FVec F S8x8192x256 .f32 := broadcastInDim S8x8192x256 ![] bcast_S_S8x8192x256 main_cst
  let main_v2 : IVec S8x8192x256 1 := cmpf .olt main_v0 main_v1
  let main_c : IVec S_ 1 := constantI S_ 1 1#1
  let main_v3 : IVec S_ 1 := (fun x v => Host.reduce IntOp.andi x v reducesTo_S8x8192x256_S_d0_1_2 h_S_) main_v2 main_c
  let main_v4 : FVec F S8x8192x256 .f32 := Host.absf main_arg1
  let main_cst_0 : FVec F S_ .f32 := constant S_ .f32 0x7F800000#32
  let main_v5 : FVec F S8x8192x256 .f32 := broadcastInDim S8x8192x256 ![] bcast_S_S8x8192x256 main_cst_0
  let main_v6 : IVec S8x8192x256 1 := cmpf .olt main_v4 main_v5
  let main_c_1 : IVec S_ 1 := constantI S_ 1 1#1
  let main_v7 : IVec S_ 1 := (fun x v => Host.reduce IntOp.andi x v reducesTo_S8x8192x256_S_d0_1_2 h_S_) main_v6 main_c_1
  let main_v8 : IVec S_ 1 := andi main_v3 main_v7
  main_v8
-- ==== Kernel.lean ====
abbrev S8x8192x256 : Shape := ⟨3, ![8, 8192, 256]⟩
abbrev S8x256x256 : Shape := ⟨3, ![8, 256, 256]⟩
abbrev S1x4096x256 : Shape := ⟨3, ![1, 4096, 256]⟩
abbrev S1x256x256 : Shape := ⟨3, ![1, 256, 256]⟩
abbrev S256x256 : Shape := ⟨2, ![256, 256]⟩
abbrev S4096x256 : Shape := ⟨2, ![4096, 256]⟩

abbrev nBuf : Space → Nat
  | .hbm => 3
  | .vmem => 6
  | .smem => 0
  | _ => 0

abbrev bufTy : (tb : Table) → Fin (tcTables nBuf tb) → BufTy
  | .hbm, ⟨0, _⟩ => ⟨S8x8192x256, .f32⟩
  | .hbm, ⟨1, _⟩ => ⟨S8x8192x256, .f32⟩
  | .hbm, ⟨2, _⟩ => ⟨S8x256x256, .f32⟩
  | .local _ .vmem, ⟨0, _⟩ => ⟨S1x4096x256, .f32⟩
  | .local _ .vmem, ⟨1, _⟩ => ⟨S1x4096x256, .f32⟩
  | .local _ .vmem, ⟨2, _⟩ => ⟨S1x4096x256, .f32⟩
  | .local _ .vmem, ⟨3, _⟩ => ⟨S1x4096x256, .f32⟩
  | .local _ .vmem, ⟨4, _⟩ => ⟨S1x256x256, .f32⟩
  | .local _ .vmem, ⟨5, _⟩ => ⟨S1x256x256, .f32⟩
  | _, _ => ⟨S8x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  bitsLt_bf16_f32 : FTy.bits .bf16 < FTy.bits .f32
  dot_S4096x256_S4096x256_S256x256_0_0_1_1_n_n_wf : DotDims.WF S4096x256 S4096x256 S256x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x256.size a ≤ S8x8192x256.size a
  hwx0_0 : ∀ i : grid0.Coords, EltTy.bits .f32 = 32 ∨ (Rect.block (s := S8x8192x256) S1x4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x256.size a ≤ S8x8192x256.size a
  hwx0_1 : ∀ i : grid0.Coords, EltTy.bits .f32 = 32 ∨ (Rect.block (s := S8x8192x256) S1x4096x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x256.size a ≤ S8x256x256.size a
  hwx0_2 : ∀ i : grid0.Coords, EltTy.bits .f32 = 32 ∨ (Rect.block (s := S8x256x256) S1x256x256.size (cc0_transform_2 i) (hinb0_2 i)).WholeWords (EltTy.packing .f32)

variable [Facts₀]

def dot_S4096x256_S4096x256_S256x256_0_0_1_1_n_n : DotDims S4096x256 S4096x256 S256x256 where
  lhsContracting := [0]
  rhsContracting := [0]
  lhsNonContracting := [1]
  rhsNonContracting := [1]
  lhsBatch := []
  rhsBatch := []
  wf := dot_S4096x256_S4096x256_S256x256_0_0_1_1_n_n_wf

abbrev win0_0 : Pipeline.Window sig grid0 :=
  Pipeline.Window.ofSpec (Memref.whole main_arg0) S1x4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x8192x256 : Shape := ⟨3, ![8, 8192, 256]⟩
abbrev S8x256x256 : Shape := ⟨3, ![8, 256, 256]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S8x8192x256, .f32⟩
  | .hbm, ⟨1, _⟩ => ⟨S8x8192x256, .f32⟩
  | .hbm, ⟨2, _⟩ => ⟨S8x256x256, .f32⟩
  | .hbm, ⟨3, _⟩ => ⟨S_, .f32⟩
  | .hbm, ⟨4, _⟩ => ⟨S8x256x256, .f32⟩
  | .hbm, ⟨5, _⟩ => ⟨S8x256x256, .f32⟩
  | _, _ => ⟨S8x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  bcast_S_S8x256x256 : S_.BroadcastsInDim S8x256x256 (![] : Fin 0 → Fin S8x256x256.rank)
  dot_S8x8192x256_S8x8192x256_S8x256x256_1_1_2_2_0_0_wf : DotDims.WF S8x8192x256 S8x8192x256 S8x256x256 [1] [1] [2] [2] [0] [0]

variable [Facts₀]

def dot_S8x8192x256_S8x8192x256_S8x256x256_1_1_2_2_0_0 : DotDims S8x8192x256 S8x8192x256 S8x256x256 where
  lhsContracting := [1]
  rhsContracting := [1]
  lhsNonContracting := [2]
  rhsNonContracting := [2]
  lhsBatch := [0]
  rhsBatch := [0]
  wf := dot_S8x8192x256_S8x8192x256_S8x256x256_1_1_2_2_0_0_wf

class Facts : Prop extends Facts₀ where

variable [Facts]
-- ==== Proof.Mean.lean ====
/-
  The arithmetic that joins the two programs, with no program in sight.

  The kernel adds up the products over the contracted axis in two halves of 4096 terms, starting from zero, and then
  multiplies by the float 2⁻¹³; the reference adds up all 8192 terms at once and divides by the float 8192. On the
  extended reals the two agree for EVERY value, the infinities included: addition there is commutative and
  associative, so a sum over 8192 terms is the sum of its two halves (`sum_halves`), and dividing by the nonzero real
  8192 is multiplying by its reciprocal 1/8192 = 2⁻¹³, which is exactly the kernel's constant (`scale_eq_div`). No
  finiteness of the inputs is used.
-/
import Idealize.ShloMosaic.PureOps.Ideal
import Idealize.ShloMosaic.Lib.ValueIdx
import Mathlib.Algebra.BigOperators.Fin

noncomputable section

open scoped BigOperators

namespace Cert.Mean

open Idealize.ShloMosaic Idealize.ShloMosaic.ValueIdx

/-- The reference's divisor: the pattern `0x46000000` (exponent field 140, fraction 0) is 2²³ · 2^(140 − 127 − 23) = 8192. -/
theorem ofBits_8192 : Ideal.ofBits .f32 0x46000000#32 = ((8192 : ℝ) : EReal) := by
  simp [Ideal.ofBits, Ideal.ieee, -EReal.coe_mul]; norm_num

/-- The kernel's scale: the pattern `0x39000000` (exponent field 114, fraction 0) is 2²³ · 2^(114 − 127 − 23) = 2⁻¹³ = 1/8192. -/
theorem ofBits_inv_8192 : Ideal.ofBits .f32 0x39000000#32 = ((1 / 8192 : ℝ) : EReal) := by
  simp [Ideal.ofBits, Ideal.ieee, -EReal.coe_mul]; norm_num

/-- Multiplying by the kernel's constant 2⁻¹³ is dividing by the reference's constant 8192, on every extended real. -/
theorem scale_eq_div (x : EReal) :
    x * Ideal.ofBits .f32 0x39000000#32 = Ideal.div x (Ideal.ofBits .f32 0x46000000#32) := by
  rw [ofBits_8192, ofBits_inv_8192, Ideal.div_coe (by norm_num : (8192 : ℝ) ≠ 0)]

/-- A sum of 8192 extended reals is zero plus its first 4096 terms, plus its last 4096 terms. -/
theorem sum_halves (f : Fin 8192 → EReal) :
    (0 + ∑ k : Fin 4096, f ⟨k.val, Nat.lt_of_lt_of_le k.isLt (by decide)⟩)
        + ∑ k : Fin 4096, f ⟨4096 + k.val, by have := k.isLt; omega⟩
      = ∑ k : Fin 8192, f k := by
  rw [zero_add]
  exact (Fin.sum_univ_add (a := 4096) (b := 4096) f).symm

/-- THE RESULT both programs compute, entry by entry: for batch b and columns p, q, the sum over the 8192 rows k of
    A(b, k, p) · B(b, k, q), divided by the float 8192 — the mean over the rows of the outer products of row k of A
    with row k of B. -/
def outerMean (A B : (⟨3, ![8, 8192, 256]⟩ : Shape).Idx → EReal) (b : Fin 8) (p q : Fin 256) : EReal :=
  Ideal.div (∑ k : Fin 8192, A (ix3 b k p) * B (ix3 b k q)) (Ideal.ofBits .f32 0x46000000#32)

/-- The kernel's arrangement of that entry — zero plus the first 4096 rows' sum, plus the last 4096 rows' sum, times
    2⁻¹³ — is the same extended real. -/
theorem halves_scaled (A B : (⟨3, ![8, 8192, 256]⟩ : Shape).Idx → EReal) (b : Fin 8) (p q : Fin 256) :
    ((0 + ∑ k : Fin 4096, A (ix3 b (⟨k.val, Nat.lt_of_lt_of_le k.isLt (by decide)⟩ : Fin 8192) p)
              * B (ix3 b (⟨k.val, Nat.lt_of_lt_of_le k.isLt (by decide)⟩ : Fin 8192) q))
        + ∑ k : Fin 4096, A (ix3 b (⟨4096 + k.val, by have := k.isLt; omega⟩ : Fin 8192) p)
              * B (ix3 b (⟨4096 + k.val, by have := k.isLt; omega⟩ : Fin 8192) q))
      * Ideal.ofBits .f32 0x39000000#32
      = outerMean A B b p q := by
  unfold outerMean
  rw [scale_eq_div]
  exact congrArg (Ideal.div · (Ideal.ofBits .f32 0x46000000#32)) (sum_halves fun k => A (ix3 b k p) * B (ix3 b k q))

end Cert.Mean

end
-- ==== Proof.Body.lean ====
/-
  The kernel body's three stored values, read at one entry (u, p, q) of the [1, 256, 256] output block, on the extended
  reals. The block has a leading axis of extent one, which the body drops before computing and restores before storing;
  the casts to bf16 are the identity there.

  * the reset value is the zero block;
  * the accumulation step adds to the entry the block already holds the product of the two [4096, 256] input blocks
    contracted over their 4096 rows: entry (p, q) of that product is the sum over the rows k of x(k, p) · y(k, q);
  * the final step multiplies the entry by the float constant 2⁻¹³.
-/
import proofs.«172503_j30313879176037_2_alg».proof.Proof.Gen.KernelIdeal.Skeleton
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- The reset value is zero at every entry. -/
theorem reset_apply (u : Fin 1) (p q : Fin 256) : k0_pay1 (F := Ideal) (ix3 u p q) = 0 := by
  unfold k0_pay1
  refine (shapeCast_ab_1ab_apply _ _ u p q).trans ?_
  show Ideal.ofBits .f32 0x00000000#32 = 0
  exact Ideal.ofBits_zero_f32

/-- The two operands of the body's matrix product at output entry (p, q) and contraction position k: row k of each
    input block, at column p of the left one and column q of the right one. -/
theorem lhs_row (j : S256x256.Idx) (k : dot_S4096x256_S4096x256_S256x256_0_0_1_1_n_n.contr.Idx) :
    (dot_S4096x256_S4096x256_S256x256_0_0_1_1_n_n.lhsIdx j k 0).val = (k ⟨0, by decide⟩).val :=
  dot_S4096x256_S4096x256_S256x256_0_0_1_1_n_n.lhsIdx_val_of_single rfl j k
theorem lhs_col (j : S256x256.Idx) (k : dot_S4096x256_S4096x256_S256x256_0_0_1_1_n_n.contr.Idx) :
    (dot_S4096x256_S4096x256_S256x256_0_0_1_1_n_n.lhsIdx j k 1).val = (j 0).val := by
  unfold DotDims.lhsIdx
  rw [dif_neg (show ¬(1 : Fin S4096x256.rank) ∈ dot_S4096x256_S4096x256_S256x256_0_0_1_1_n_n.lhsBatch by decide),
    dif_pos (show (1 : Fin S4096x256.rank) ∈ dot_S4096x256_S4096x256_S256x256_0_0_1_1_n_n.lhsNonContracting by decide)]
  rfl
theorem rhs_row (j : S256x256.Idx) (k : dot_S4096x256_S4096x256_S256x256_0_0_1_1_n_n.contr.Idx) :
    (dot_S4096x256_S4096x256_S256x256_0_0_1_1_n_n.rhsIdx j k 0).val = (k ⟨0, by decide⟩).val :=
  dot_S4096x256_S4096x256_S256x256_0_0_1_1_n_n.rhsIdx_val_of_single rfl j k
theorem rhs_col (j : S256x256.Idx) (k : dot_S4096x256_S4096x256_S256x256_0_0_1_1_n_n.contr.Idx) :
    (dot_S4096x256_S4096x256_S256x256_0_0_1_1_n_n.rhsIdx j k 1).val = (j 1).val := by
  unfold DotDims.rhsIdx
  rw [dif_neg (show ¬(1 : Fin S4096x256.rank) ∈ dot_S4096x256_S4096x256_S256x256_0_0_1_1_n_n.rhsBatch by decide),
    dif_pos (show (1 : Fin S4096x256.rank) ∈ dot_S4096x256_S4096x256_S256x256_0_0_1_1_n_n.rhsNonContracting by decide)]
  rfl

/-- The body's matrix product into a zero accumulator, at entry (p, q): the sum over the 4096 rows k of the left
    block's (k, p) entry times the right block's (k, q) entry. -/
theorem product_apply (l r : FVec Ideal S4096x256 .bf16) (p q : Fin 256) :
    matmul dot_S4096x256_S4096x256_S256x256_0_0_1_1_n_n none l r (constant S256x256 .f32 0x00000000#32) (ix2 p q)
      = ∑ k : Fin 4096, l (ix2 k p) * r (ix2 k q) := by
  refine (Ideal.matmul_constant_zero_apply dot_S4096x256_S4096x256_S256x256_0_0_1_1_n_n none l r (ix2 p q)).trans ?_
  rw [← Equiv.sum_comp (contrEquiv1 dot_S4096x256_S4096x256_S256x256_0_0_1_1_n_n 4096 rfl rfl).symm]
  refine Finset.sum_congr rfl fun k _ => ?_
  have hk := contrEquiv1_symm_val dot_S4096x256_S4096x256_S256x256_0_0_1_1_n_n 4096 rfl rfl k
  have el : dot_S4096x256_S4096x256_S256x256_0_0_1_1_n_n.lhsIdx (ix2 p q)
      ((contrEquiv1 dot_S4096x256_S4096x256_S256x256_0_0_1_1_n_n 4096 rfl rfl).symm k) = ix2 k p :=
    funext fun a => Fin.ext (by
      match a with
      | ⟨0, _⟩ => exact (lhs_row _ _).trans hk
      | ⟨1, _⟩ => exact lhs_col _ _)
  have er : dot_S4096x256_S4096x256_S256x256_0_0_1_1_n_n.rhsIdx (ix2 p q)
      ((contrEquiv1 dot_S4096x256_S4096x256_S256x256_0_0_1_1_n_n 4096 rfl rfl).symm k) = ix2 k q :=
    funext fun a => Fin.ext (by
      match a with
      | ⟨0, _⟩ => exact (rhs_row _ _).trans hk
      | ⟨1, _⟩ => exact rhs_col _ _)
  rw [el, er]

/-- The accumulation step at entry (u, p, q): what the block held there, plus the sum over the 4096 rows k of
    x(0, k, p) · y(0, k, q). -/
theorem step_apply (x y : Vec Ideal S1x4096x256 .f32) (acc : Vec Ideal S1x256x256 .f32) (u : Fin 1) (p q : Fin 256) :
    k0_pay2 (F := Ideal) x y acc (ix3 u p q)
      = acc (ix3 (0 : Fin 1) p q) + ∑ k : Fin 4096, x (ix3 (0 : Fin 1) k p) * y (ix3 (0 : Fin 1) k q) := by
  unfold k0_pay2
  refine (shapeCast_ab_1ab_apply _ _ u p q).trans ?_
  refine (addf_apply _ _ _).trans ?_
  refine congrArg₂ (· + ·) (shapeCast_1ab_ab_apply acc _ p q) ((product_apply _ _ p q).trans ?_)
  refine Finset.sum_congr rfl fun k _ => ?_
  exact congrArg₂ (· * ·) (shapeCast_1ab_ab_apply x _ k p) (shapeCast_1ab_ab_apply y _ k q)

/-- The final step at entry (u, p, q): the entry times the float constant 2⁻¹³. -/
theorem scale_apply (v : Vec Ideal S1x256x256 .f32) (u : Fin 1) (p q : Fin 256) :
    k0_pay3 (F := Ideal) v (ix3 u p q) = v (ix3 (0 : Fin 1) p q) * Ideal.ofBits .f32 0x39000000#32 := by
  unfold k0_pay3
  refine (shapeCast_ab_1ab_apply _ _ u p q).trans ?_
  refine (mulf_apply _ _ _).trans ?_
  exact congrArg (· * Ideal.ofBits .f32 0x39000000#32) (shapeCast_1ab_ab_apply v _ p q)

/-- One whole run of the body over an output block — reset, the step on the first half's blocks (x₀, y₀), the step on the
    second half's blocks (x₁, y₁), the scale — at entry (u, p, q): zero plus the first half's sum of products, plus the
    second half's, times 2⁻¹³. -/
theorem run_apply (x0 y0 x1 y1 : Vec Ideal S1x4096x256 .f32) (u : Fin 1) (p q : Fin 256) :
    k0_pay3 (F := Ideal) (k0_pay2 x1 y1 (k0_pay2 x0 y0 (k0_pay1 (F := Ideal)))) (ix3 u p q)
      = ((0 + ∑ k : Fin 4096, x0 (ix3 (0 : Fin 1) k p) * y0 (ix3 (0 : Fin 1) k q))
          + ∑ k : Fin 4096, x1 (ix3 (0 : Fin 1) k p) * y1 (ix3 (0 : Fin 1) k q))
        * Ideal.ofBits .f32 0x39000000#32 := by
  rw [scale_apply, step_apply, step_apply, reset_apply]

end Cert.KernelIdeal.Body

end
-- ==== Proof.Blocks.lean ====
/-
  The two input blocks the body is handed at a grid point, read through their windows.

  The grid has 8 · 2 points; point t is batch t / 2 and half t % 2 of the contracted axis. Each input window's block
  at point t is the [1, 4096, 256] slab of its [8, 8192, 256] array at batch t / 2 and rows (t % 2) · 4096 … + 4095:
  entry (0, k, p) of the block is entry (t / 2, (t % 2) · 4096 + k, p) of the array.
-/
import proofs.«172503_j30313879176037_2_alg».proof.Proof.Gen.KernelIdeal.Frame

noncomputable section

namespace Cert.KernelIdeal.Blocks

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- The left window's block index at point t: batch t / 2, half t % 2, the whole last axis. Decided over the grid. -/
theorem left_index : ∀ t : Fin cfg0.N, win0_0.index t (0 : Fin 3) = t.val / 2 ∧ win0_0.index t (1 : Fin 3) = t.val % 2
    ∧ win0_0.index t (2 : Fin 3) = 0 :=
  (by decide +kernel : ∀ t : Fin grid0.N, _)

/-- The right window's block index at point t: the same. -/
theorem right_index : ∀ t : Fin cfg0.N, win0_1.index t (0 : Fin 3) = t.val / 2 ∧ win0_1.index t (1 : Fin 3) = t.val % 2
    ∧ win0_1.index t (2 : Fin 3) = 0 :=
  (by decide +kernel : ∀ t : Fin grid0.N, _)

/-- Entry y of the left block at point t is the first argument array at any index j whose coordinates are
    batch t / 2, row (t % 2) · 4096 + y₁, column y₂. -/
theorem left_block (c : Dev nD) (t : Fin cfg0.N) (y : S1x4096x256.Idx) (j : S8x8192x256.Idx)
    (h0 : (j 0).val = t.val / 2) (h1 : (j 1).val = t.val % 2 * 4096 + (y 1).val) (h2 : (j 2).val = (y 2).val) :
    iblk m c 0 t y = m ((c : Thread nD τ).loc main_arg0) j := by
  show V m c main_arg0 (((cfg0.win 0).blk t).view.emb y) = V m c main_arg0 j
  refine congrArg _ (funext fun a => Fin.ext ?_)
  obtain ⟨e0, e1, e2⟩ := left_index t
  have hy0 : (y 0).val < 1 := (y 0).isLt
  match a with
  | ⟨0, _⟩ => show win0_0.index t (0 : Fin 3) * 1 + 1 * (y 0).val = (j 0).val; omega
  | ⟨1, _⟩ => show win0_0.index t (1 : Fin 3) * 4096 + 1 * (y 1).val = (j 1).val; omega
  | ⟨2, _⟩ => show win0_0.index t (2 : Fin 3) * 256 + 1 * (y 2).val = (j 2).val; omega

/-- Entry y of the right block at point t is the second argument array at any index j whose coordinates are
    batch t / 2, row (t % 2) · 4096 + y₁, column y₂. -/
theorem right_block (c : Dev nD) (t : Fin cfg0.N) (y : S1x4096x256.Idx) (j : S8x8192x256.Idx)
    (h0 : (j 0).val = t.val / 2) (h1 : (j 1).val = t.val % 2 * 4096 + (y 1).val) (h2 : (j 2).val = (y 2).val) :
    iblk m c 1 t y = m ((c : Thread nD τ).loc main_arg1) j := by
  show V m c main_arg1 (((cfg0.win 1).blk t).view.emb y) = V m c main_arg1 j
  refine congrArg _ (funext fun a => Fin.ext ?_)
  obtain ⟨e0, e1, e2⟩ := right_index t
  have hy0 : (y 0).val < 1 := (y 0).isLt
  match a with
  | ⟨0, _⟩ => show win0_1.index t (0 : Fin 3) * 1 + 1 * (y 0).val = (j 0).val; omega
  | ⟨1, _⟩ => show win0_1.index t (1 : Fin 3) * 4096 + 1 * (y 1).val = (j 1).val; omega
  | ⟨2, _⟩ => show win0_1.index t (2 : Fin 3) * 256 + 1 * (y 2).val = (j 2).val; omega

end Cert.KernelIdeal.Blocks

end
-- ==== Proof.KernelResult.lean ====
/-
  What the kernel's result array holds after the run, entry by entry.

  Each batch b has its own output block, visited at the two consecutive grid points 2b and 2b + 1 and written back
  after the second. After that second point the block's buffer holds the reset value stepped through both points'
  input blocks and scaled. Reading the input blocks through their windows, entry (b, p, q) of the array is zero plus
  the sum over rows 0 … 4095 of A(b, k, p) · B(b, k, q), plus the same sum over rows 4096 … 8191, times 2⁻¹³ — which
  is the mean outer product.
-/
import proofs.«172503_j30313879176037_2_alg».proof.Proof.Gen.KernelIdeal.Value
import proofs.«172503_j30313879176037_2_alg».proof.Proof.Mean
import proofs.«172503_j30313879176037_2_alg».proof.Proof.Body
import proofs.«172503_j30313879176037_2_alg».proof.Proof.Blocks

noncomputable section

open scoped BigOperators

namespace Cert.KernelIdeal.Result

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- What batch b's output block holds, at entry (u, p, q), after the second point of its run (the points 2b and
    2b + 1): the mean outer product at (b, p, q). -/
theorem fold_apply (c : Dev nD) (b : Fin 8) (h : 2 * b.val + 1 < cfg0.N) (u : Fin 1) (p q : Fin 256) :
    Pipeline.accAt (Value.reset2 m c) (Value.step2 m c) (2 * b.val) 1 h (ix3 u p q)
      = Mean.outerMean (m ((c : Thread nD τ).loc main_arg0)) (m ((c : Thread nD τ).loc main_arg1)) b p q := by
  refine (Body.run_apply (iblk m c 0 ⟨2 * b.val, Nat.lt_of_succ_lt h⟩) (iblk m c 1 ⟨2 * b.val, Nat.lt_of_succ_lt h⟩)
    (iblk m c 0 ⟨2 * b.val + 1, h⟩) (iblk m c 1 ⟨2 * b.val + 1, h⟩) u p q).trans ?_
  refine Eq.trans ?_ (Mean.halves_scaled _ _ b p q)
  refine congrArg (· * Ideal.ofBits .f32 0x39000000#32) ?_
  refine congrArg₂ (· + ·) (congrArg (0 + ·) (Finset.sum_congr rfl fun k _ => ?_)) (Finset.sum_congr rfl fun k _ => ?_)
  · exact congrArg₂ (· * ·)
      (Blocks.left_block m c ⟨2 * b.val, Nat.lt_of_succ_lt h⟩ (ix3 (0 : Fin 1) k p)
        (ix3 b (⟨k.val, Nat.lt_of_lt_of_le k.isLt (by decide)⟩ : Fin 8192) p)
        (by show b.val = 2 * b.val / 2; omega) (by show k.val = 2 * b.val % 2 * 4096 + k.val; omega) rfl)
      (Blocks.right_block m c ⟨2 * b.val, Nat.lt_of_succ_lt h⟩ (ix3 (0 : Fin 1) k q)
        (ix3 b (⟨k.val, Nat.lt_of_lt_of_le k.isLt (by decide)⟩ : Fin 8192) q)
        (by show b.val = 2 * b.val / 2; omega) (by show k.val = 2 * b.val % 2 * 4096 + k.val; omega) rfl)
  · exact congrArg₂ (· * ·)
      (Blocks.left_block m c ⟨2 * b.val + 1, h⟩ (ix3 (0 : Fin 1) k p)
        (ix3 b (⟨4096 + k.val, by have := k.isLt; omega⟩ : Fin 8192) p)
        (by show b.val = (2 * b.val + 1) / 2; omega) (by show 4096 + k.val = (2 * b.val + 1) % 2 * 4096 + k.val; omega) rfl)
      (Blocks.right_block m c ⟨2 * b.val + 1, h⟩ (ix3 (0 : Fin 1) k q)
        (ix3 b (⟨4096 + k.val, by have := k.isLt; omega⟩ : Fin 8192) q)
        (by show b.val = (2 * b.val + 1) / 2; omega) (by show 4096 + k.val = (2 * b.val + 1) % 2 * 4096 + k.val; omega) rfl)

/-- Entry (b, p, q) of the kernel's result array after the run: its block is batch b's, the block's run starts at
    point 2b, and the entry's place in the block is (0, p, q). -/
theorem value_apply (c : Dev nD) (b : Fin 8) (p q : Fin 256) :
    Value.G2 (F := Ideal) m c (ix3 b p q)
      = Mean.outerMean (m ((c : Thread nD τ).loc main_arg0)) (m ((c : Thread nD τ).loc main_arg1)) b p q := by
  have hb : b.val < 8 := b.isLt
  have hp : p.val < 256 := p.isLt
  have hq : q.val < 256 := q.isLt
  have hN : cfg0.N = 16 := N_0
  have hr : Value.run2Of (ix3 b p q) = b.val := by
    show 1 * (b.val / 1 - 0) + 1 * (p.val / 256 - 0) + 1 * (q.val / 256 - 0) = b.val
    omega
  have hl : Value.loc2Of (ix3 b p q) = ix3 (0 : Fin 1) p q := by
    funext a; apply Fin.ext
    match a with
    | ⟨0, _⟩ => show b.val % 1 = 0; omega
    | ⟨1, _⟩ => show p.val % 256 = p.val; omega
    | ⟨2, _⟩ => show q.val % 256 = q.val; omega
  have hlt : 2 * b.val + 1 < cfg0.N := by omega
  have e : ∀ (n n' : ℕ) (h : n + 1 < cfg0.N) (h' : n' + 1 < cfg0.N), n = n' →
      Pipeline.accAt (Value.reset2 m c) (Value.step2 m c) n 1 h = Pipeline.accAt (Value.reset2 m c) (Value.step2 m c) n' 1 h' := by
    intro n n' h h' hn; subst hn; rfl
  unfold Value.G2
  rw [dif_pos (by rw [hr]; exact hlt), hl]
  exact (congrFun (e _ _ _ hlt (by rw [hr])) _).trans (fold_apply m c b hlt 0 p q)

/-- The kernel's result array after the run is the mean outer product of the two argument arrays. -/
theorem result_eq (c : Dev nD) :
    Value.G2 (F := Ideal) m c
      = fun i => Mean.outerMean (m ((c : Thread nD τ).loc main_arg0)) (m ((c : Thread nD τ).loc main_arg1)) (i 0) (i 1) (i 2) := by
  funext i
  obtain ⟨b, p, q, rfl⟩ : ∃ (b : Fin 8) (p q : Fin 256), i = ix3 b p q := ⟨i 0, i 1, i 2, eq_ix3 i⟩
  exact value_apply m c b p q

end Cert.KernelIdeal.Result

end
-- ==== Proof.ReferenceResult.lean ====
/-
  What the reference computes, entry by entry: its batched matrix product contracts the 8192 rows of the two arguments,
  entry (b, p, q) being the sum over k of A(b, k, p) · B(b, k, q), and the result is divided by the float 8192
  everywhere — the mean outer product.
-/
import proofs.«172503_j30313879176037_2_alg».proof.Proof.Gen.ReferenceIdeal.Read
import proofs.«172503_j30313879176037_2_alg».proof.Proof.Mean

noncomputable section

open scoped BigOperators

namespace Cert.ReferenceIdeal.Result

open Cert.ReferenceIdeal Cert.ReferenceIdeal.Gen Idealize.ShloMosaic Idealize.ShloMosaic.ValueIdx

/-- The reference's result array is the mean outer product of its two argument arrays. -/
theorem result_eq (x0 x1 : (⟨S8x8192x256, .f32⟩ : BufTy).Contents (Elt Ideal)) :
    Read.val_main_v2 (F := Ideal) x0 x1 = fun i => Mean.outerMean x0 x1 (i 0) (i 1) (i 2) := by
  funext i
  have el : ∀ k : Fin 8192, Read.lidx_main_v0 i k = ix3 (i 0) k (i 1) := fun k => funext fun a => by
    match a with | ⟨0, _⟩ => rfl | ⟨1, _⟩ => rfl | ⟨2, _⟩ => rfl
  have er : ∀ k : Fin 8192, Read.ridx_main_v0 i k = ix3 (i 0) k (i 2) := fun k => funext fun a => by
    match a with | ⟨0, _⟩ => rfl | ⟨1, _⟩ => rfl | ⟨2, _⟩ => rfl
  rw [Read.val_main_v2_apply, Read.val_main_v0_apply, Read.val_main_v1_apply, Read.val_main_cst_apply]
  simp only [el, er]
  rfl

end Cert.ReferenceIdeal.Result

end
-- ==== Proof.lean ====
/-
  The mean outer product: for arrays A, B of shape [8, 8192, 256], the result of shape [8, 256, 256] whose entry
  (b, p, q) is (1 / 8192) · Σₖ A(b, k, p) · B(b, k, q), the sum over the 8192 rows k.

  The kernel visits each batch b at two consecutive grid points, one per half of the rows. At the first it zeroes the
  batch's output block and adds the product of the two [4096, 256] input blocks contracted over their rows; at the
  second it adds the second half's product and multiplies the block by the float 2⁻¹³; the block is written back after
  the second point. The reference contracts all 8192 rows in one batched product and divides by the float 8192.

  On the extended reals the casts to bf16 are the identity, so entry (b, p, q) of the kernel's result is
  ((0 + Σ_{k < 4096} A(b, k, p) · B(b, k, q)) + Σ_{4096 ≤ k < 8192} A(b, k, p) · B(b, k, q)) · 2⁻¹³ and the reference's is
  (Σ_{k < 8192} A(b, k, p) · B(b, k, q)) / 8192. These are one extended real for every input, the infinities included:
  addition is commutative and associative there, so the whole sum is the sum of its halves, and dividing by the nonzero
  real 8192 is multiplying by 1/8192 = 2⁻¹³ (Proof/Mean.lean). The precondition that the inputs are finite is not used.

  Proof/Body.lean reads the body's three stored values at an entry, Proof/Blocks.lean the input blocks through their
  windows, Proof/KernelResult.lean puts them together into the kernel's result array, Proof/ReferenceResult.lean reads
  the reference's. The kernel's idealization changes nothing that needs a statement, so that conjunct is trivial.
-/
import proofs.«172503_j30313879176037_2_alg».proof.Defs
import proofs.«172503_j30313879176037_2_alg».proof.Proof.Gen.Kernel.Frame
import proofs.«172503_j30313879176037_2_alg».proof.Proof.Gen.KernelIdeal.Value
import proofs.«172503_j30313879176037_2_alg».proof.Proof.Gen.Pre_finite_inputs
import proofs.«172503_j30313879176037_2_alg».proof.Proof.Gen.ReferenceIdeal.Run
import proofs.«172503_j30313879176037_2_alg».proof.Proof.Gen.ReferenceIdeal.Read
import proofs.«172503_j30313879176037_2_alg».proof.Proof.KernelResult
import proofs.«172503_j30313879176037_2_alg».proof.Proof.ReferenceResult
import Idealize.ShloMosaic.Adequacy
import Idealize.ShloMosaic.Init

noncomputable section

namespace Cert.Proof

open Idealize.ShloMosaic Idealize.SL.Sem

/-- The idealized kernel terminates without a fault and leaves its two arguments unchanged: its run, with the result
    array's contents dropped. -/
theorem frame_KernelIdeal : frame_KernelIdeal := fun m ρ _ =>
  (θ_run Cert.KernelIdeal.defs _ _).mono (fun _ h c => (h c).2) (Cert.KernelIdeal.Value.run (F := Ideal) m ρ)

/-- The same for the idealized reference. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories that agree on the two arguments, both programs end with the mean outer product of those arguments
    in their result arrays. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1, (hagree c).1, (hagree c).2, Cert.ReferenceIdeal.Read.val_main_v2_eq]
  exact (Cert.ReferenceIdeal.Result.result_eq _ _).trans (Cert.KernelIdeal.Result.result_eq m c).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
